-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x20128 : Shape := ⟨2, ![1024, 20128]⟩
abbrev S20000x129 : Shape := ⟨2, ![20000, 129]⟩
abbrev S20000 : Shape := ⟨1, ![20000]⟩
abbrev S_ : Shape := ⟨0, ![]⟩

class Facts : Prop where
  bcast_S_S1024x20128 : S_.BroadcastsInDim S1024x20128 (![] : Fin 0 → Fin S1024x20128.rank)
  reducesTo_S1024x20128_S_d0_1 : S1024x20128.ReducesTo [0, 1] S_
  h_S_ : 0 < S_.numel
  bcast_S_S20000x129 : S_.BroadcastsInDim S20000x129 (![] : Fin 0 → Fin S20000x129.rank)
  reducesTo_S20000x129_S_d0_1 : S20000x129.ReducesTo [0, 1] S_
  bcast_S_S20000 : S_.BroadcastsInDim S20000 (![] : Fin 0 → Fin S20000.rank)
  reducesTo_S20000_S_d0 : S20000.ReducesTo [0] S_

variable [Facts]

def fn {F : FTy → Type} [FloatOps F] (main_arg0 : FVec F S1024x20128 .f32) (main_arg1 : FVec F S20000x129 .f32) (main_arg2 : FVec F S20000 .f32) : IVec S_ 1 :=
  let main_v0 : FVec F S1024x20128 .f32 := Host.absf main_arg0
  let main_cst : FVec F S_ .f32 := constant S_ .f32 0x7F800000#32
  let main_v1 : FVec F S1024x20128 .f32 := broadcastInDim S1024x20128 ![] bcast_S_S1024x20128 main_cst
  let main_v2 : IVec S1024x20128 1 := cmpf .olt main_v0 main_v1
  let main_c : IVec S_ 1 := constantI S_ 1 1#1
  let main_v3 : IVec S_ 1 := (fun x v => Host.reduce IntOp.andi x v reducesTo_S1024x20128_S_d0_1 h_S_) main_v2 main_c
  let main_v4 : FVec F S20000x129 .f32 := Host.absf main_arg1
  let main_cst_0 : FVec F S_ .f32 := constant S_ .f32 0x7F800000#32
  let main_v5 : FVec F S20000x129 .f32 := broadcastInDim S20000x129 ![] bcast_S_S20000x129 main_cst_0
  let main_v6 : IVec S20000x129 1 := cmpf .olt main_v4 main_v5
  let main_c_1 : IVec S_ 1 := constantI S_ 1 1#1
  let main_v7 : IVec S_ 1 := (fun x v => Host.reduce IntOp.andi x v reducesTo_S20000x129_S_d0_1 h_S_) main_v6 main_c_1
  let main_v8 : IVec S_ 1 := andi main_v3 main_v7
  let main_v9 : FVec F S20000 .f32 := Host.absf main_arg2
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  main_v13
-- ==== Kernel.lean ====
abbrev S1024x20128 : Shape := ⟨2, ![1024, 20128]⟩
abbrev S20000x129 : Shape := ⟨2, ![20000, 129]⟩
abbrev S20000 : Shape := ⟨1, ![20000]⟩
abbrev S1024x128 : Shape := ⟨2, ![1024, 128]⟩
abbrev S20000x1 : Shape := ⟨2, ![20000, 1]⟩
abbrev S20000x128 : Shape := ⟨2, ![20000, 128]⟩
abbrev S128x20000 : Shape := ⟨2, ![128, 20000]⟩
abbrev S1x20000 : Shape := ⟨2, ![1, 20000]⟩
abbrev S2x20000 : Shape := ⟨2, ![2, 20000]⟩
abbrev S1024x20000 : Shape := ⟨2, ![1024, 20000]⟩
abbrev S64x20128 : Shape := ⟨2, ![64, 20128]⟩
abbrev S64x128 : Shape := ⟨2, ![64, 128]⟩
abbrev S64x20000 : Shape := ⟨2, ![64, 20000]⟩

abbrev nBuf : Space → Nat
  | .hbm => 13
  | .vmem => 8
  | .smem => 0
  | _ => 0

abbrev bufTy : (tb : Table) → Fin (tcTables nBuf tb) → BufTy
  | .hbm, ⟨0, _⟩ => ⟨S1024x20128, .f32⟩
  | .hbm, ⟨1, _⟩ => ⟨S20000x129, .f32⟩
  | .hbm, ⟨2, _⟩ => ⟨S20000, .f32⟩
  | .hbm, ⟨3, _⟩ => ⟨S1024x128, .f32⟩
  | .hbm, ⟨4, _⟩ => ⟨S20000x1, .f32⟩
  | .hbm, ⟨5, _⟩ => ⟨S20000, .f32⟩
  | .hbm, ⟨6, _⟩ => ⟨S20000x128, .f32⟩
  | .hbm, ⟨7, _⟩ => ⟨S128x20000, .f32⟩
  | .hbm, ⟨8, _⟩ => ⟨S128x20000, .bf16⟩
  | .hbm, ⟨9, _⟩ => ⟨S1x20000, .f32⟩
  | .hbm, ⟨10, _⟩ => ⟨S1x20000, .f32⟩
  | .hbm, ⟨11, _⟩ => ⟨S2x20000, .f32⟩
  | .hbm, ⟨12, _⟩ => ⟨S1024x20000, .f32⟩
  | .local _ .vmem, ⟨0, _⟩ => ⟨S64x20128, .f32⟩
  | .local _ .vmem, ⟨1, _⟩ => ⟨S64x20128, .f32⟩
  | .local _ .vmem, ⟨2, _⟩ => ⟨S64x128, .f32⟩
  | .local _ .vmem, ⟨3, _⟩ => ⟨S64x128, .f32⟩
  | .local _ .vmem, ⟨4, _⟩ => ⟨S128x20000, .bf16⟩
  | .local _ .vmem, ⟨5, _⟩ => ⟨S2x20000, .f32⟩
  | .local _ .vmem, ⟨6, _⟩ => ⟨S64x20000, .f32⟩
  | .local _ .vmem, ⟨7, _⟩ => ⟨S64x20000, .f32⟩
  | _, _ => ⟨S1024x20128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x20000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x20000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024x20128_S1024x128_0_20000 : S1024x20128.Slices ![0, 20000] S1024x128
  slices_S20000x129_S20000x1_0_0 : S20000x129.Slices ![0, 0] S20000x1
  shapeCasts_S20000x1_S20000 : S20000x1.ShapeCasts S20000
  slices_S20000x129_S20000x128_0_1 : S20000x129.Slices ![0, 1] S20000x128
  transposes_S20000x128_S128x20000_1_0 : S20000x128.Transposes [1, 0] S128x20000
  bitsLt_bf16_f32 : FTy.bits .bf16 < FTy.bits .f32
  bcast_S20000_S1x20000_1 : S20000.BroadcastsInDim S1x20000 (![1] : Fin 1 → Fin S1x20000.rank)
  concatenates_S1x20000_S1x20000_S2x20000_d0 : Shape.Concatenates [S1x20000, S1x20000] S2x20000 0
  inb_S64x20128_S64x20128_0_0 : ∀ a, (![0, 0] : Fin 2 → Nat) a + S64x20128.size a ≤ S64x20128.size a
  h_S64x20128 : 0 < S64x20128.numel
  slices_S64x20128_o0_0_S64x20000 : S64x20128.Slices ![0, 0] S64x20000
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x20000_S128x20000_0_0 : ∀ a, (![0, 0] : Fin 2 → Nat) a + S128x20000.size a ≤ S128x20000.size a
  h_S128x20000 : 0 < S128x20000.numel
  shapeCasts_S128x20000_S128x20000 : S128x20000.ShapeCasts S128x20000
  inb_S2x20000_S1x20000_0_0 : ∀ a, (![0, 0] : Fin 2 → Nat) a + S1x20000.size a ≤ S2x20000.size a
  h_S1x20000 : 0 < S1x20000.numel
  shapeCasts_S1x20000_S1x20000 : S1x20000.ShapeCasts S1x20000
  inb_S2x20000_S1x20000_1_0 : ∀ a, (![1, 0] : Fin 2 → Nat) a + S1x20000.size a ≤ S2x20000.size a
  broadcasts_S1x20000_S64x20000 : S1x20000.Broadcasts S64x20000
  inb_S64x20000_S64x20000_0_0 : ∀ a, (![0, 0] : Fin 2 → Nat) a + S64x20000.size a ≤ S64x20000.size a
  h_S64x20000 : 0 < S64x20000.numel
  dot_S64x128_S128x20000_S64x20000_1_0_0_1_n_n_wf : DotDims.WF S64x128 S128x20000 S64x20000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20128.size a ≤ S1024x20128.size a
  hwx0_0 : ∀ i : grid0.Coords, EltTy.bits .f32 = 32 ∨ (Rect.block (s := S1024x20128) S64x20128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S1024x128.size a
  hwx0_1 : ∀ i : grid0.Coords, EltTy.bits .f32 = 32 ∨ (Rect.block (s := S1024x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x20000.size a ≤ S128x20000.size a
  hwx0_2 : ∀ i : grid0.Coords, EltTy.bits .bf16 = 32 ∨ (Rect.block (s := S128x20000) S128x20000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x20000.size a ≤ S2x20000.size a
  hwx0_3 : ∀ i : grid0.Coords, EltTy.bits .f32 = 32 ∨ (Rect.block (s := S2x20000) S2x20000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x20000.size a ≤ S1024x20000.size a
  hwx0_4 : ∀ i : grid0.Coords, EltTy.bits .f32 = 32 ∨ (Rect.block (s := S1024x20000) S64x20000.size (cc0_transform_4 i) (hinb0_4 i)).WholeWords (EltTy.packing .f32)

variable [Facts₀]

def dot_S64x128_S128x20000_S64x20000_1_0_0_1_n_n : DotDims S64x128 S128x20000 S64x20000 where
  lhsContracting := [1]
  rhsContracting := [0]
  lhsNonContracting := [0]
  rhsNonContracting := [1]
  lhsBatch := []
  rhsBatch := []
  wf := dot_S64x128_S128x20000_S64x20000_1_0_0_1_n_n_wf

abbrev win0_0 : Pipeline.Window sig grid0 :=
  Pipeline.Window.ofSpec (Memref.whole main_arg0) S64x20128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x20000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2x20000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x20000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x20128 : Shape := ⟨2, ![1024, 20128]⟩
abbrev S20000x129 : Shape := ⟨2, ![20000, 129]⟩
abbrev S20000 : Shape := ⟨1, ![20000]⟩
abbrev S1024x20000 : Shape := ⟨2, ![1024, 20000]⟩
abbrev S1024x128 : Shape := ⟨2, ![1024, 128]⟩
abbrev S20000x1 : Shape := ⟨2, ![20000, 1]⟩
abbrev S20000x128 : Shape := ⟨2, ![20000, 128]⟩
abbrev S1x20000 : Shape := ⟨2, ![1, 20000]⟩

abbrev nBuf : Space → Nat
  | .hbm => 16
  | .vmem => 0
  | .smem => 0
  | _ => 0

abbrev bufTy : (tb : Table) → Fin (tcTables nBuf tb) → BufTy
  | .hbm, ⟨0, _⟩ => ⟨S1024x20128, .f32⟩
  | .hbm, ⟨1, _⟩ => ⟨S20000x129, .f32⟩
  | .hbm, ⟨2, _⟩ => ⟨S20000, .f32⟩
  | .hbm, ⟨3, _⟩ => ⟨S1024x20000, .f32⟩
  | .hbm, ⟨4, _⟩ => ⟨S1024x128, .f32⟩
  | .hbm, ⟨5, _⟩ => ⟨S20000x1, .f32⟩
  | .hbm, ⟨6, _⟩ => ⟨S20000, .f32⟩
  | .hbm, ⟨7, _⟩ => ⟨S20000x128, .f32⟩
  | .hbm, ⟨8, _⟩ => ⟨S1x20000, .f32⟩
  | .hbm, ⟨9, _⟩ => ⟨S1024x20000, .f32⟩
  | .hbm, ⟨10, _⟩ => ⟨S1024x20000, .f32⟩
  | .hbm, ⟨11, _⟩ => ⟨S1024x20000, .f32⟩
  | .hbm, ⟨12, _⟩ => ⟨S1024x20000, .f32⟩
  | .hbm, ⟨13, _⟩ => ⟨S1x20000, .f32⟩
  | .hbm, ⟨14, _⟩ => ⟨S1024x20000, .f32⟩
  | .hbm, ⟨15, _⟩ => ⟨S1024x20000, .f32⟩
  | _, _ => ⟨S1024x20128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  slices_S1024x20128_S1024x20000_0_0 : S1024x20128.Slices ![0, 0] S1024x20000
  slices_S1024x20128_S1024x128_0_20000 : S1024x20128.Slices ![0, 20000] S1024x128
  slices_S20000x129_S20000x1_0_0 : S20000x129.Slices ![0, 0] S20000x1
  shapeCasts_S20000x1_S20000 : S20000x1.ShapeCasts S20000
  slices_S20000x129_S20000x128_0_1 : S20000x129.Slices ![0, 1] S20000x128
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  dot_S1024x128_S20000x128_S1024x20000_1_1_0_0_n_n_wf : DotDims.WF S1024x128 S20000x128 S1024x20000 [1] [1] [0] [0] [] []

variable [Facts₀]

def dot_S1024x128_S20000x128_S1024x20000_1_1_0_0_n_n : DotDims S1024x128 S20000x128 S1024x20000 where
  lhsContracting := [1]
  rhsContracting := [1]
  lhsNonContracting := [0]
  rhsNonContracting := [0]
  lhsBatch := []
  rhsBatch := []
  wf := dot_S1024x128_S20000x128_S1024x20000_1_1_0_0_n_n_wf

class Facts : Prop extends Facts₀ where

variable [Facts]
-- ==== Proof.Affine.lean ====
/-
  The function both programs compute, stated once, index by index, on the extended reals.

  A row of `x` has 20128 columns: the first 20000 are per-gene inputs, the last 128 are features shared by every
  gene. Row `q` of `W` belongs to gene `q`: its column 0 multiplies the gene's own input, its columns 1 … 128
  multiply the shared features. The result at (row `r`, gene `q`) is

      (x[r, q] · W[q, 0]  +  Σ_{k < 128} x[r, 20000 + k] · W[q, 1 + k])  +  b[q],

  the two additions grouped as written: both programs add the shared-feature product onto the own-input product
  first and the bias last, so no law of the extended reals is needed to compare them beyond reading each
  program's layout operations at an index.
-/
import Idealize.ShloMosaic.PureOps.Ideal
import Idealize.ShloMosaic.Lib.ValueIdx

noncomputable section

namespace Cert.PerGene

open Idealize.ShloMosaic Idealize.ShloMosaic.ValueIdx

/-- Gene `q`'s own column in a row of `x`. -/
abbrev ownCol (q : Fin 20000) : Fin 20128 := ⟨q.val, by have := q.isLt; omega⟩

/-- The column of shared feature `k` in a row of `x`: the shared features follow the 20000 gene columns. -/
abbrev sharedCol (k : Fin 128) : Fin 20128 := ⟨20000 + k.val, by have := k.isLt; omega⟩

/-- The column of a row of `W` that multiplies the gene's own input. -/
abbrev ownWeight : Fin 129 := ⟨0, by decide⟩

/-- The column of a row of `W` that multiplies shared feature `k`. -/
abbrev sharedWeight (k : Fin 128) : Fin 129 := ⟨1 + k.val, by have := k.isLt; omega⟩

/-- The result at row `r` and gene `q`. -/
def entry (x : (⟨2, ![1024, 20128]⟩ : Shape).Idx → EReal) (W : (⟨2, ![20000, 129]⟩ : Shape).Idx → EReal)
    (b : (⟨1, ![20000]⟩ : Shape).Idx → EReal) (r : Fin 1024) (q : Fin 20000) : EReal :=
  x (ix2 r (ownCol q)) * W (ix2 q ownWeight)
    + ∑ k : Fin 128, x (ix2 r (sharedCol k)) * W (ix2 q (sharedWeight k))
    + b (ix1 q)

/-- The whole result array. -/
def result (x : (⟨2, ![1024, 20128]⟩ : Shape).Idx → EReal) (W : (⟨2, ![20000, 129]⟩ : Shape).Idx → EReal)
    (b : (⟨1, ![20000]⟩ : Shape).Idx → EReal) : (⟨2, ![1024, 20000]⟩ : Shape).Idx → EReal :=
  fun i => entry x W b ⟨(i 0).val, (i 0).isLt⟩ ⟨(i 1).val, (i 1).isLt⟩

theorem result_ix2 (x : (⟨2, ![1024, 20128]⟩ : Shape).Idx → EReal) (W : (⟨2, ![20000, 129]⟩ : Shape).Idx → EReal)
    (b : (⟨1, ![20000]⟩ : Shape).Idx → EReal) (r : Fin 1024) (q : Fin 20000) :
    result x W b (ix2 r q) = entry x W b r q := rfl

end Cert.PerGene

end
-- ==== Proof.Reference.lean ====
/-
  The reference program's result is the specified function.

  The reference slices the gene columns and the shared-feature columns out of `x`, column 0 and columns 1 … 128
  out of `W`, broadcasts the own-weight column and the bias along the rows, and computes
  `gene · own + shared ·ᵀ sharedW + bias` with one contraction over the 128 shared features. Reading each layout
  operation at an index turns its result at (`r`, `q`) into the specification's entry, term for term: the
  contraction is already a sum over `Fin 128` of `x[r, 20000 + k] · W[q, 1 + k]` in that order of factors.
-/
import proofs.«145950_j5480378270212_2_alg».proof.Proof.Gen.ReferenceIdeal.Read
import proofs.«145950_j5480378270212_2_alg».proof.Proof.Affine

noncomputable section

namespace Cert.PerGene.Reference

open Cert.ReferenceIdeal Cert.ReferenceIdeal.Read Cert.PerGene
open Idealize.ShloMosaic Idealize.ShloMosaic.ValueIdx

/-- The gene slice keeps the row and the column. -/
theorem geneIdx (r : Fin 1024) (q : Fin 20000) : idx_main_v0 (ix2 r q) = ix2 r (ownCol q) :=
  funext fun a => Fin.ext (by match a with | ⟨0, _⟩ => rfl | ⟨1, _⟩ => rfl)

/-- The own-weight column, reshaped to a vector and broadcast to a row and then along the rows, is read at `W[q, 0]`. -/
theorem ownWeightIdx (r : Fin 1024) (q : Fin 20000) :
    idx_main_v2 (idx_main_v3 (idx_main_v5 (idx_main_v6 (ix2 r q)))) = ix2 q ownWeight :=
  funext fun a => Fin.ext (by
    match a with
    | ⟨0, _⟩ => show q.val / 1 = q.val; exact Nat.div_one _
    | ⟨1, _⟩ => rfl)

/-- The left factor of the contraction at position `k` is `x[r, 20000 + k]`. -/
theorem sharedIdx (r : Fin 1024) (q : Fin 20000) (k : Fin 128) :
    idx_main_v1 (lidx_main_v8 (ix2 r q) k) = ix2 r (sharedCol k) :=
  funext fun a => Fin.ext (by match a with | ⟨0, _⟩ => rfl | ⟨1, _⟩ => rfl)

/-- The right factor of the contraction at position `k` is `W[q, 1 + k]`. -/
theorem sharedWeightIdx (r : Fin 1024) (q : Fin 20000) (k : Fin 128) :
    idx_main_v4 (ridx_main_v8 (ix2 r q) k) = ix2 q (sharedWeight k) :=
  funext fun a => Fin.ext (by match a with | ⟨0, _⟩ => rfl | ⟨1, _⟩ => rfl)

/-- The bias broadcast to a row and then along the rows is read at `b[q]`. -/
theorem biasIdx (r : Fin 1024) (q : Fin 20000) : idx_main_v10 (idx_main_v11 (ix2 r q)) = ix1 q :=
  funext fun a => Fin.ext (by match a with | ⟨0, _⟩ => rfl)

/-- THE REFERENCE IS THE SPECIFICATION: its last stage, as a function of the three arguments, index by index. -/
theorem stage_eq (x : (⟨S1024x20128, .f32⟩ : BufTy).Contents (Elt Ideal)) (W : (⟨S20000x129, .f32⟩ : BufTy).Contents (Elt Ideal))
    (b : (⟨S20000, .f32⟩ : BufTy).Contents (Elt Ideal)) :
    val_main_v12 (F := Ideal) x W b = result x W b := by
  funext i
  obtain ⟨r, q, rfl⟩ : ∃ (r : Fin 1024) (q : Fin 20000), i = ix2 r q := ⟨i 0, i 1, eq_ix2 i⟩
  have hs : (∑ k : Fin 128, val_main_v1 (F := Ideal) x (lidx_main_v8 (ix2 r q) k) * val_main_v4 (F := Ideal) W (ridx_main_v8 (ix2 r q) k))
      = ∑ k : Fin 128, x (ix2 r (sharedCol k)) * W (ix2 q (sharedWeight k)) :=
    Finset.sum_congr rfl fun k _ => by
      rw [val_main_v1_apply, val_main_v4_apply, sharedIdx r q k, sharedWeightIdx r q k]
  rw [val_main_v12_apply, val_main_v9_apply, val_main_v7_apply, val_main_v8_apply, hs, val_main_v0_apply, val_main_v6_apply,
    val_main_v5_apply, val_main_v3_apply, val_main_v2_apply, val_main_v11_apply, val_main_v10_apply,
    geneIdx r q, ownWeightIdx r q, biasIdx r q, result_ix2]
  rfl

end Cert.PerGene.Reference

end
-- ==== Proof.Body.lean ====
/-
  What the kernel body stores into its output block, read at one index, on the extended reals.

  At a grid point the body holds a 64-row block of `x` (all 20128 columns), the same 64 rows of the shared
  features as a separate [64, 128] block, the whole transposed shared-weight matrix [128, 20000] and the
  two-row array whose row 0 is the genes' own weights and row 1 the biases. Into entry (`p`, `q`) of the
  [64, 20000] output block it stores

      (xblock[p, q] · rows[0, q]  +  Σ_{k < 128} shared[p, k] · wT[k, q])  +  rows[1, q].

  The slice of the first 20000 columns keeps the column number; a one-row array broadcast to 64 rows is read
  at row 0; the change to the narrower float format is the identity on the extended reals; the matrix product
  into a zero accumulator is the plain sum over the one contracted axis, re-indexed by `Fin 128`.
-/
import proofs.«145950_j5480378270212_2_alg».proof.Proof.Gen.KernelIdeal.Skeleton
import proofs.«145950_j5480378270212_2_alg».proof.Proof.Affine
import Idealize.ShloMosaic.Lib.Pipeline.Value
import Idealize.ShloMosaic.Lib.ValueIdx
import Idealize.ShloMosaic.PureOps.Ideal.Laws

noncomputable section

namespace Cert.PerGene.Body

open Cert.KernelIdeal Cert.KernelIdeal.Gen Cert.PerGene
open Idealize.ShloMosaic Idealize.ShloMosaic.ValueIdx

/-- The dimension numbers of the body's matrix product: [64, 128] × [128, 20000], contracting the 128. -/
abbrev mxu : DotDims S64x128 S128x20000 S64x20000 := dot_S64x128_S128x20000_S64x20000_1_0_0_1_n_n

/-- The first 20000 columns of the `x` block, at (`p`, `q`): column `q` of the block. -/
theorem geneSlice_apply (v : FVec Ideal S64x20128 .f32) (p : Fin 64) (q : Fin 20000) :
    extractStridedSlice S64x20000 ![0, 0] v slices_S64x20128_o0_0_S64x20000 (ix2 p q) = v (ix2 p (ownCol q)) :=
  extractStridedSlice_apply ![0, 0] v slices_S64x20128_o0_0_S64x20000 (ix2 p q) (ix2 p (ownCol q)) (fun a => match a with
    | ⟨0, _⟩ => by show p.val = 0 + p.val; omega
    | ⟨1, _⟩ => by show q.val = 0 + q.val; omega)

/-- A one-row array broadcast over the 64 rows of the block, at (`p`, `q`): the row's entry `q`. -/
theorem rowBroadcast_apply (v : FVec Ideal S1x20000 .f32) (p : Fin 64) (q : Fin 20000) :
    broadcastTo S64x20000 (shapeCast S1x20000 v shapeCasts_S1x20000_S1x20000) broadcasts_S1x20000_S64x20000 (ix2 p q)
      = v (ix2 (0 : Fin 1) q) := by
  rw [shapeCast_self]
  exact broadcastTo_apply v broadcasts_S1x20000_S64x20000 (ix2 p q) (ix2 (0 : Fin 1) q) (fun a => match a with
    | ⟨0, _⟩ => by show (0 : Nat) = if (1 : Nat) = 1 then 0 else p.val; rw [if_pos rfl]
    | ⟨1, _⟩ => by show q.val = if (20000 : Nat) = 1 then 0 else q.val; rw [if_neg (by decide)])

theorem mxu_lhs_row (j : S64x20000.Idx) (κ : mxu.contr.Idx) : (mxu.lhsIdx j κ 0).val = (j 0).val := by
  unfold DotDims.lhsIdx
  rw [dif_neg (show ¬(0 : Fin S64x128.rank) ∈ mxu.lhsBatch by decide), dif_pos (show (0 : Fin S64x128.rank) ∈ mxu.lhsNonContracting by decide)]
  rfl

theorem mxu_lhs_contr (j : S64x20000.Idx) (κ : mxu.contr.Idx) : (mxu.lhsIdx j κ 1).val = (κ ⟨0, by decide⟩).val :=
  mxu.lhsIdx_val_of_single rfl j κ

theorem mxu_rhs_contr (j : S64x20000.Idx) (κ : mxu.contr.Idx) : (mxu.rhsIdx j κ 0).val = (κ ⟨0, by decide⟩).val :=
  mxu.rhsIdx_val_of_single rfl j κ

theorem mxu_rhs_col (j : S64x20000.Idx) (κ : mxu.contr.Idx) : (mxu.rhsIdx j κ 1).val = (j 1).val := by
  unfold DotDims.rhsIdx
  rw [dif_neg (show ¬(1 : Fin S128x20000.rank) ∈ mxu.rhsBatch by decide), dif_pos (show (1 : Fin S128x20000.rank) ∈ mxu.rhsNonContracting by decide)]
  rfl

/-- The matrix product into a zero accumulator, at (`p`, `q`): row `p` of the left operand against column `q` of the
    right, summed over the 128 contracted positions. -/
theorem mxu_apply (l : FVec Ideal S64x128 .bf16) (r : FVec Ideal S128x20000 .bf16) (p : Fin 64) (q : Fin 20000) :
    matmul mxu none l r (constant (F := Ideal) S64x20000 .f32 0x00000000#32) (ix2 p q)
      = ∑ k : Fin 128, l (ix2 p k) * r (ix2 k q) := by
  refine (Ideal.matmul_constant_zero_apply mxu none l r (ix2 p q)).trans ?_
  rw [← Equiv.sum_comp (contrEquiv1 mxu 128 rfl rfl).symm]
  refine Finset.sum_congr rfl fun k _ => ?_
  have hk := contrEquiv1_symm_val mxu 128 rfl rfl k
  have el : mxu.lhsIdx (ix2 p q) ((contrEquiv1 mxu 128 rfl rfl).symm k) = ix2 p k := funext fun a => Fin.ext (by
    match a with
    | ⟨0, _⟩ => exact mxu_lhs_row _ _
    | ⟨1, _⟩ => exact (mxu_lhs_contr _ _).trans hk)
  have er : mxu.rhsIdx (ix2 p q) ((contrEquiv1 mxu 128 rfl rfl).symm k) = ix2 k q := funext fun a => Fin.ext (by
    match a with
    | ⟨0, _⟩ => exact (mxu_rhs_contr _ _).trans hk
    | ⟨1, _⟩ => exact mxu_rhs_col _ _)
  rw [el, er]

/-- THE STORED VALUE at (`p`, `q`), from the body's five loads: the `x` block `xb`, the shared-feature block `sh`, the
    transposed shared weights `wT`, and rows 0 and 1 of the two-row array (`own`, `bias`). -/
theorem stored_apply (xb : Vec Ideal S64x20128 .f32) (sh : Vec Ideal S64x128 .f32) (wT : Vec Ideal S128x20000 .bf16)
    (own bias : Vec Ideal S1x20000 .f32) (p : Fin 64) (q : Fin 20000) :
    k0_pay1 xb sh wT own bias (ix2 p q)
      = xb (ix2 p (ownCol q)) * own (ix2 (0 : Fin 1) q) + ∑ k : Fin 128, sh (ix2 p k) * wT (ix2 k q)
        + bias (ix2 (0 : Fin 1) q) := by
  have h1 := geneSlice_apply xb p q
  have h2 := rowBroadcast_apply own p q
  have h3 := rowBroadcast_apply bias p q
  have h4 := mxu_apply (truncf .bf16 (shapeCast S64x128 sh shapeCasts_S64x128_S64x128) bitsLt_bf16_f32)
    (shapeCast S128x20000 wT shapeCasts_S128x20000_S128x20000) p q
  rw [shapeCast_self, shapeCast_self] at h4
  show extractStridedSlice S64x20000 ![0, 0] xb slices_S64x20128_o0_0_S64x20000 (ix2 p q)
        * broadcastTo S64x20000 (shapeCast S1x20000 own shapeCasts_S1x20000_S1x20000) broadcasts_S1x20000_S64x20000 (ix2 p q)
      + matmul mxu none (truncf .bf16 (shapeCast S64x128 sh shapeCasts_S64x128_S64x128) bitsLt_bf16_f32)
          (shapeCast S128x20000 wT shapeCasts_S128x20000_S128x20000) (constant (F := Ideal) S64x20000 .f32 0x00000000#32) (ix2 p q)
      + broadcastTo S64x20000 (shapeCast S1x20000 bias shapeCasts_S1x20000_S1x20000) broadcasts_S1x20000_S64x20000 (ix2 p q) = _
  rw [h1, h2, h3]
  rw [shapeCast_self, shapeCast_self, h4]
  rfl

end Cert.PerGene.Body

end
-- ==== Proof.Staged.lean ====
/-
  What the kernel's region finds in the three arrays that the host operations before it wrote.

  Before the one region the program cuts the 128 shared-feature columns out of `x` ([1024, 128]); cuts columns
  1 … 128 out of `W`, transposes them to [128, 20000] and narrows the float format (the identity on the extended
  reals); and stacks the own-weight column of `W` and the bias vector as the two rows of a [2, 20000] array. Read
  at an index:

      shared[r, k] = x[r, 20000 + k],   wT[k, q] = W[q, 1 + k],   rows[0, q] = W[q, 0],   rows[1, q] = b[q].
-/
import proofs.«145950_j5480378270212_2_alg».proof.Proof.Gen.KernelIdeal.Frame
import proofs.«145950_j5480378270212_2_alg».proof.Proof.Affine
import Idealize.ShloMosaic.Lib.Pipeline.Value
import Idealize.ShloMosaic.Lib.ValueIdx
import Idealize.ShloMosaic.Lib.StableHlo.Run

noncomputable section

namespace Cert.PerGene.Staged

open Cert.KernelIdeal Cert.KernelIdeal.Gen Cert.PerGene
open Idealize.ShloMosaic Idealize.ShloMosaic.TcCoe Idealize.ShloMosaic.ValueIdx Idealize.ShloMosaic.StableHlo Idealize.SL.Sem

variable (m : (ℓ : Loc nD τ sig) → Buf (Elt Ideal) ℓ)

/-! ## The three arrays as terms of the arguments -/

/-- The shared-feature array: the last 128 columns of `x`. -/
theorem shared_eq (c : Dev nD) :
    (V m c main_v0 : S1024x128.Idx → EReal)
      = extractStridedSlice S1024x128 ![0, 20000] (m ((c : Thread nD τ).loc main_arg0)) slices_S1024x20128_S1024x128_0_20000 := by
  dsimp only [V, hostOps0]; after_results <;> rfl

/-- The transposed shared weights: columns 1 … 128 of `W`, transposed, in the narrower float format. -/
theorem wT_eq (c : Dev nD) :
    V m c main_v5
      = (truncf (F := Ideal) .bf16 (transpose S128x20000 [1, 0]
          (extractStridedSlice S20000x128 ![0, 1] (m ((c : Thread nD τ).loc main_arg1)) slices_S20000x129_S20000x128_0_1)
          transposes_S20000x128_S128x20000_1_0) bitsLt_bf16_f32 : FVec Ideal S128x20000 .bf16) := by
  dsimp only [V, hostOps0]; after_results <;> rfl

/-- The two-row array: the own-weight column of `W` as a row, over the bias as a row. -/
theorem rows_eq (c : Dev nD) :
    (V m c main_v8 : S2x20000.Idx → EReal)
      = concatenate S2x20000 0
          [⟨S1x20000, broadcastInDim S1x20000 ![1] bcast_S20000_S1x20000_1
              (shapeCast _ (extractStridedSlice S20000x1 ![0, 0] (m ((c : Thread nD τ).loc main_arg1)) slices_S20000x129_S20000x1_0_0)
                shapeCasts_S20000x1_S20000)⟩,
           ⟨S1x20000, broadcastInDim S1x20000 ![1] bcast_S20000_S1x20000_1 (m ((c : Thread nD τ).loc main_arg2))⟩]
          concatenates_S1x20000_S1x20000_S2x20000_d0 := by
  dsimp only [V, hostOps0]; after_results <;> rfl

/-! ## Read at an index -/

/-- `shared[r, k] = x[r, 20000 + k]`. -/
theorem shared_apply (c : Dev nD) (r : Fin 1024) (k : Fin 128) :
    (V m c main_v0 : S1024x128.Idx → EReal) (ix2 r k)
      = (m ((c : Thread nD τ).loc main_arg0) : S1024x20128.Idx → EReal) (ix2 r (sharedCol k)) := by
  rw [shared_eq]
  exact extractStridedSlice_apply ![0, 20000] _ slices_S1024x20128_S1024x128_0_20000 (ix2 r k) (ix2 r (sharedCol k)) (fun a => match a with
    | ⟨0, _⟩ => by show r.val = 0 + r.val; omega
    | ⟨1, _⟩ => by show 20000 + k.val = 20000 + k.val; rfl)

/-- `wT[k, q] = W[q, 1 + k]`. -/
theorem wT_apply (c : Dev nD) (k : Fin 128) (q : Fin 20000) :
    (V m c main_v5 : S128x20000.Idx → EReal) (ix2 k q)
      = (m ((c : Thread nD τ).loc main_arg1) : S20000x129.Idx → EReal) (ix2 q (sharedWeight k)) := by
  rw [wT_eq]
  refine (truncf_apply _ bitsLt_bf16_f32 (ix2 k q)).trans ?_
  refine (transpose_apply [1, 0] _ transposes_S20000x128_S128x20000_1_0 (ix2 k q) (ix2 q k) (fun b => match b with
    | ⟨0, _⟩ => rfl
    | ⟨1, _⟩ => rfl)).trans ?_
  exact extractStridedSlice_apply ![0, 1] _ slices_S20000x129_S20000x128_0_1 (ix2 q k) (ix2 q (sharedWeight k)) (fun a => match a with
    | ⟨0, _⟩ => by show q.val = 0 + q.val; omega
    | ⟨1, _⟩ => by show 1 + k.val = 1 + k.val; rfl)

/-- `rows[0, q] = W[q, 0]`. -/
theorem ownRow_apply (c : Dev nD) (q : Fin 20000) :
    (V m c main_v8 : S2x20000.Idx → EReal) (ix2 (0 : Fin 2) q)
      = (m ((c : Thread nD τ).loc main_arg1) : S20000x129.Idx → EReal) (ix2 q ownWeight) := by
  rw [rows_eq]
  refine (concatenate_pair_apply_left (0 : Fin S2x20000.rank) _ _ concatenates_S1x20000_S1x20000_S2x20000_d0
    (ix2 (0 : Fin 2) q) rfl (ix2 (0 : Fin 1) q) (fun b => match b with
      | ⟨0, _⟩ => rfl
      | ⟨1, _⟩ => rfl)).trans ?_
  refine (broadcastInDim_apply _ bcast_S20000_S1x20000_1 _ (ix2 (0 : Fin 1) q) (ix1 q) (fun a => match a with
    | ⟨0, _⟩ => by show q.val = if (20000 : Nat) = 1 then 0 else q.val; rw [if_neg (by decide)])).trans ?_
  refine (shapeCast_apply _ shapeCasts_S20000x1_S20000 (ix1 q) (ix2 q (0 : Fin 1))
    (by rewrite [Shape.rowMajor_val_two, Shape.rowMajor_val_one]; show q.val * 1 + 0 = q.val; omega)).trans ?_
  exact extractStridedSlice_apply ![0, 0] _ slices_S20000x129_S20000x1_0_0 (ix2 q (0 : Fin 1)) (ix2 q ownWeight) (fun a => match a with
    | ⟨0, _⟩ => by show q.val = 0 + q.val; omega
    | ⟨1, _⟩ => by show (0 : Nat) = 0 + 0; rfl)

/-- `rows[1, q] = b[q]`. -/
theorem biasRow_apply (c : Dev nD) (q : Fin 20000) :
    (V m c main_v8 : S2x20000.Idx → EReal) (ix2 (1 : Fin 2) q)
      = (m ((c : Thread nD τ).loc main_arg2) : S20000.Idx → EReal) (ix1 q) := by
  rw [rows_eq]
  refine (concatenate_pair_apply_right (0 : Fin S2x20000.rank) _ _ concatenates_S1x20000_S1x20000_S2x20000_d0
    (ix2 (1 : Fin 2) q) rfl rfl (ix2 (0 : Fin 1) q) (fun b hb => match b, hb with
      | ⟨0, _⟩, hb => absurd rfl hb
      | ⟨1, _⟩, _ => rfl) (by show (0 : Nat) + 1 = 1; rfl)).trans ?_
  exact broadcastInDim_apply _ bcast_S20000_S1x20000_1 _ (ix2 (0 : Fin 1) q) (ix1 q) (fun a => match a with
    | ⟨0, _⟩ => by show q.val = if (20000 : Nat) = 1 then 0 else q.val; rw [if_neg (by decide)])

end Cert.PerGene.Staged

end
-- ==== Proof.Blocks.lean ====
/-
  From the kernel's blocks to its whole result array.

  The grid has 16 points. At point `t` the region stages rows `64 t … 64 t + 63` of `x` (all columns) and the
  same rows of the shared-feature array, and — at every point — the whole transposed shared-weight matrix and the
  whole two-row array of own weights and biases; the body's loads read these blocks whole, except the two loads
  of one row each of the two-row array. What the body stores at (`p`, `q`) of the output block (Body.lean), with
  each staged array read back to the arguments (Staged.lean), is the specification's entry at row `64 t + p` and
  gene `q`; point `t` writes its block back to rows `64 t … 64 t + 63` of the result, and the 16 blocks cover
  all 1024 rows, so the result array ends holding the specified function of the arguments.
-/
import proofs.«145950_j5480378270212_2_alg».proof.Proof.Gen.KernelIdeal.Value
import proofs.«145950_j5480378270212_2_alg».proof.Proof.Affine
import proofs.«145950_j5480378270212_2_alg».proof.Proof.Body
import proofs.«145950_j5480378270212_2_alg».proof.Proof.Staged
import Idealize.ShloMosaic.Lib.Pipeline.Value
import Idealize.ShloMosaic.Lib.ValueIdx

noncomputable section

namespace Cert.PerGene.Blocks

open Cert.KernelIdeal Cert.KernelIdeal.Gen Cert.PerGene
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- Which block of its array each window stages at point `t`: the row-blocked windows (`x`, the shared features,
    the result) block `t`, the two whole-array windows block 0. Decided over the 16 points. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The specification's entry assembled from its parts: an own-input factor and its weight, the 128 shared features
    and their weights, and a bias, each known to be the corresponding entry of the arguments. -/
theorem entry_of_parts (x : (⟨2, ![1024, 20128]⟩ : Shape).Idx → EReal) (W : (⟨2, ![20000, 129]⟩ : Shape).Idx → EReal)
    (b : (⟨1, ![20000]⟩ : Shape).Idx → EReal) (r : Fin 1024) (q : Fin 20000) (A B C : EReal) (L R : Fin 128 → EReal)
    (hA : A = x (ix2 r (ownCol q))) (hB : B = W (ix2 q ownWeight))
    (hL : ∀ k, L k = x (ix2 r (sharedCol k))) (hR : ∀ k, R k = W (ix2 q (sharedWeight k))) (hC : C = b (ix1 q)) :
    A * B + ∑ k : Fin 128, L k * R k + C = entry x W b r q := by
  subst hA hB hC
  rw [Finset.sum_congr rfl fun k _ => by rw [hL k, hR k]]
  rfl

/-! ## Each input block read back to the array the region found -/

/-- The `x` block at point `t`, entry (`p`, `j`): `x[64 t + p, j]`. -/
theorem xBlock_apply (c : Dev nD) (t : Fin cfg0.N) (p : Fin 64) (j : Fin 20128) (r : Fin 1024) (hr : r.val = 64 * t.val + p.val) :
    View.ld (iblk m c 0 t) r0_0 (ix2 p j) = (m ((c : Thread nD τ).loc main_arg0) : S1024x20128.Idx → EReal) (ix2 r j) := by
  obtain ⟨e0, e1, -⟩ := blockIndex t
  unfold iblk
  dsimp only [View.ld]
  rw [View.read_apply]
  show V m c main_arg0 _ = _
  rw [V_main_arg0]
  congr 1
  funext a
  apply Fin.ext
  match a with
  | ⟨0, _⟩ => show win0_0.index t (0 : Fin 2) * 64 + 1 * (0 + 1 * p.val) = r.val; rw [e0, hr]; omega
  | ⟨1, _⟩ => show win0_0.index t (1 : Fin 2) * 20128 + 1 * (0 + 1 * j.val) = j.val; rw [e1]; omega

/-- The shared-feature block at point `t`, entry (`p`, `k`): `x[64 t + p, 20000 + k]`. -/
theorem sharedBlock_apply (c : Dev nD) (t : Fin cfg0.N) (p : Fin 64) (k : Fin 128) (r : Fin 1024) (hr : r.val = 64 * t.val + p.val) :
    View.ld (iblk m c 1 t) r0_1 (ix2 p k) = (m ((c : Thread nD τ).loc main_arg0) : S1024x20128.Idx → EReal) (ix2 r (sharedCol k)) := by
  obtain ⟨-, -, e0, e1, -⟩ := blockIndex t
  unfold iblk
  dsimp only [View.ld]
  rw [View.read_apply]
  show (V m c main_v0 : S1024x128.Idx → EReal) _ = _
  refine Eq.trans (congrArg (V m c main_v0 : S1024x128.Idx → EReal) (funext fun a => Fin.ext ?_)) (Staged.shared_apply m c r k)
  match a with
  | ⟨0, _⟩ => show win0_1.index t (0 : Fin 2) * 64 + 1 * (0 + 1 * p.val) = r.val; rw [e0, hr]; omega
  | ⟨1, _⟩ => show win0_1.index t (1 : Fin 2) * 128 + 1 * (0 + 1 * k.val) = k.val; rw [e1]; omega

/-- The transposed shared weights, staged whole at every point, entry (`k`, `q`): `W[q, 1 + k]`. -/
theorem wTBlock_apply (c : Dev nD) (t : Fin cfg0.N) (k : Fin 128) (q : Fin 20000) :
    View.ld (iblk m c 2 t) r0_2 (ix2 k q) = (m ((c : Thread nD τ).loc main_arg1) : S20000x129.Idx → EReal) (ix2 q (sharedWeight k)) := by
  obtain ⟨-, -, -, -, e0, e1, -⟩ := blockIndex t
  unfold iblk
  dsimp only [View.ld]
  rw [View.read_apply]
  show (V m c main_v5 : S128x20000.Idx → EReal) _ = _
  refine Eq.trans (congrArg (V m c main_v5 : S128x20000.Idx → EReal) (funext fun a => Fin.ext ?_)) (Staged.wT_apply m c k q)
  match a with
  | ⟨0, _⟩ => show win0_2.index t (0 : Fin 2) * 128 + 1 * (0 + 1 * k.val) = k.val; rw [e0]; omega
  | ⟨1, _⟩ => show win0_2.index t (1 : Fin 2) * 20000 + 1 * (0 + 1 * q.val) = q.val; rw [e1]; omega

/-- The load of row 0 of the two-row array, entry `q`: `W[q, 0]`. -/
theorem ownLoad_apply (c : Dev nD) (t : Fin cfg0.N) (q : Fin 20000) :
    View.ld (iblk m c 3 t) r0_3 (ix2 (0 : Fin 1) q) = (m ((c : Thread nD τ).loc main_arg1) : S20000x129.Idx → EReal) (ix2 q ownWeight) := by
  obtain ⟨-, -, -, -, -, -, e0, e1, -⟩ := blockIndex t
  unfold iblk
  dsimp only [View.ld]
  rw [View.read_apply]
  show (V m c main_v8 : S2x20000.Idx → EReal) _ = _
  refine Eq.trans (congrArg (V m c main_v8 : S2x20000.Idx → EReal) (funext fun a => Fin.ext ?_)) (Staged.ownRow_apply m c q)
  match a with
  | ⟨0, _⟩ => show win0_3.index t (0 : Fin 2) * 2 + 1 * (0 + 1 * 0) = 0; rw [e0]
  | ⟨1, _⟩ => show win0_3.index t (1 : Fin 2) * 20000 + 1 * (0 + 1 * q.val) = q.val; rw [e1]; omega

/-- The load of row 1 of the two-row array, entry `q`: `b[q]`. -/
theorem biasLoad_apply (c : Dev nD) (t : Fin cfg0.N) (q : Fin 20000) :
    View.ld (iblk m c 3 t) r0_4 (ix2 (0 : Fin 1) q) = (m ((c : Thread nD τ).loc main_arg2) : S20000.Idx → EReal) (ix1 q) := by
  obtain ⟨-, -, -, -, -, -, e0, e1, -⟩ := blockIndex t
  unfold iblk
  dsimp only [View.ld]
  rw [View.read_apply]
  show (V m c main_v8 : S2x20000.Idx → EReal) _ = _
  refine Eq.trans (congrArg (V m c main_v8 : S2x20000.Idx → EReal) (funext fun a => Fin.ext ?_)) (Staged.biasRow_apply m c q)
  match a with
  | ⟨0, _⟩ => show win0_3.index t (0 : Fin 2) * 2 + 1 * (1 + 1 * 0) = 1; rw [e0]
  | ⟨1, _⟩ => show win0_3.index t (1 : Fin 2) * 20000 + 1 * (0 + 1 * q.val) = q.val; rw [e1]; omega

/-! ## What a point stores, as the specification's entry -/

/-- The output block the body leaves at point `t`, entry (`p`, `q`), is the specified result at row `64 t + p`, gene `q`. -/
theorem storedBlock_apply (c : Dev nD) (t : Fin cfg0.N) (p : Fin 64) (q : Fin 20000) (r : Fin 1024) (hr : r.val = 64 * t.val + p.val) :
    out0_4 (iblk m c 0 t) (iblk m c 1 t) (iblk m c 2 t) (iblk m c 3 t) (ix2 p q)
      = entry (m ((c : Thread nD τ).loc main_arg0)) (m ((c : Thread nD τ).loc main_arg1)) (m ((c : Thread nD τ).loc main_arg2)) r q := by
  unfold out0_4
  rw [View.canon_unit_zero zeroOffsets]
  refine (Body.stored_apply (View.ld (iblk m c 0 t) r0_0) (View.ld (iblk m c 1 t) r0_1) (View.ld (iblk m c 2 t) r0_2)
    (View.ld (iblk m c 3 t) r0_3) (View.ld (iblk m c 3 t) r0_4) p q).trans ?_
  exact entry_of_parts _ _ _ r q _ _ _ (fun k => View.ld (iblk m c 1 t) r0_1 (ix2 p k)) (fun k => View.ld (iblk m c 2 t) r0_2 (ix2 k q))
    (xBlock_apply m c t p (ownCol q) r hr) (ownLoad_apply m c t q)
    (fun k => sharedBlock_apply m c t p k r hr) (fun k => wTBlock_apply m c t k q) (biasLoad_apply m c t q)

/-! ## Point `t` writes block `t` of the specified result; the 16 blocks cover it -/

/-- Row `64 t + p` is a row of the result: there are 16 points and 64 rows to a block. -/
theorem row_lt (t : Fin cfg0.N) (p : Fin 64) : 64 * t.val + p.val < 1024 := by
  have hN : cfg0.N = 16 := N_0
  have ht := t.isLt
  have hp := p.isLt
  omega

/-- WHAT POINT `t` WRITES BACK is block `t` — rows `64 t … 64 t + 63` — of the specified result of the arguments. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1)) (m ((c : Thread nD τ).loc main_arg2))) := by
  rw [Value.flushed4]
  refine funext fun (y : S64x20000.Idx) => ?_
  obtain ⟨p, q, rfl⟩ : ∃ (p : Fin 64) (q : Fin 20000), y = ix2 p q := ⟨y 0, y 1, eq_ix2 y⟩
  obtain ⟨-, -, -, -, -, -, -, -, e0, e1⟩ := blockIndex t
  rw [View.read_apply]
  show out0_4 (iblk m c 0 t) (iblk m c 1 t) (iblk m c 2 t) (iblk m c 3 t) (ix2 p q)
    = result _ _ _ (((cfg0.win 4).blk t).view.emb (ix2 p q))
  have hemb : ((cfg0.win 4).blk t).view.emb (ix2 p q) = ix2 (⟨64 * t.val + p.val, row_lt t p⟩ : Fin 1024) q :=
    funext fun a => Fin.ext (by
      match a with
      | ⟨0, _⟩ => show win0_4.index t (0 : Fin 2) * 64 + 1 * p.val = 64 * t.val + p.val; rw [e0]; omega
      | ⟨1, _⟩ => show win0_4.index t (1 : Fin 2) * 20000 + 1 * q.val = q.val; rw [e1]; omega)
  rw [hemb, result_ix2]
  exact storedBlock_apply m c t p q _ rfl

/-- An index of the result is in point `t`'s block iff each coordinate is in the block's range on its axis. -/
theorem mem_block (t : Fin cfg0.N) (i : S1024x20000.Idx) :
    i ∈ ((cfg0.win 4).blk t).view.set ↔ ∀ a : Fin 2, win0_4.index t a * S64x20000.size a ≤ (i a).val ∧ (i a).val < win0_4.index t a * S64x20000.size a + S64x20000.size a := by
  show i ∈ ((View.whole main_v9).slice (win0_4.rect t)).set ↔ _
  rw [View.set_slice_whole, Rect.mem_set_unit]
  exact Iff.rfl

/-- Every index of the result is in the block of the point its row falls in: row `r` is in block `r / 64`. -/
theorem cover (i : S1024x20000.Idx) : ∃ t : Fin cfg0.N, (cfg0.win 4).flush t = true ∧ i ∈ ((cfg0.win 4).blk t).view.set := by
  have hi0 : (i 0).val < 1024 := (i 0).isLt
  have hi1 : (i 1).val < 20000 := (i 1).isLt
  obtain ⟨t, ht⟩ : ∃ t : Fin cfg0.N, t.val = (i 0).val / 64 :=
    ⟨⟨(i 0).val / 64, by rw [show cfg0.N = 16 from N_0]; omega⟩, rfl⟩
  obtain ⟨-, -, -, -, -, -, -, -, e0, e1⟩ := blockIndex t
  refine ⟨t, flush0_4 t, ?_⟩
  rw [mem_block]
  intro a
  match a with
  | ⟨0, _⟩ => show win0_4.index t (0 : Fin 2) * 64 ≤ (i 0).val ∧ (i 0).val < win0_4.index t (0 : Fin 2) * 64 + 64; rw [e0, ht]; omega
  | ⟨1, _⟩ => show win0_4.index t (1 : Fin 2) * 20000 ≤ (i 1).val ∧ (i 1).val < win0_4.index t (1 : Fin 2) * 20000 + 20000; rw [e1]; omega

/-- THE RESULT ARRAY after the run is the specified function of the arguments. -/
theorem final (c : Dev nD) : (dats m 0 c).arrAt 4 cfg0.N
    = result (m ((c : Thread nD τ).loc main_arg0)) (m ((c : Thread nD τ).loc main_arg1)) (m ((c : Thread nD τ).loc main_arg2)) :=
  (dats m 0 c).arrAt_eq_of_cover 4 _ (fun t _ => flushed_eq m c t) cover

/-! ## The run, read -/

/-- Every weakly fair execution of the idealized kernel terminates with the result array at the specified function of the
    arguments and the arguments unchanged. -/
theorem run : θ_run defs (onTc (τ := τ) (main (F := Ideal))) ⟨m, fun _ => 0, ρ⟩ fun r => ∀ c : Dev nD,
      r.2.mem ((c : Thread nD τ).loc main_v9)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.PerGene.Blocks

end
-- ==== Proof.lean ====
/-
  The certificate of a per-gene affine layer: for a batch of 1024 rows of 20128 inputs — 20000 per-gene inputs followed
  by 128 features shared by all genes —, a weight array `W` of 20000 rows of 129 and a bias vector `b`,

      y[r, q] = (x[r, q] · W[q, 0]  +  Σ_{k < 128} x[r, 20000 + k] · W[q, 1 + k])  +  b[q].

  THE KERNEL cuts the shared-feature columns out of `x`, transposes columns 1 … 128 of `W` into a narrower float format,
  stacks column 0 of `W` and `b` as two rows, and then, for each of 16 blocks of 64 rows, multiplies the block's shared
  features into the transposed weights on the matrix unit (from a zero accumulator), adds that onto the block's gene
  columns times the own-weight row, and adds the bias row. THE REFERENCE computes the same expression with slices,
  broadcasts and one contraction over the shared features.

  On the extended reals a change of float format is the identity and the matrix product is the plain sum over the
  contracted axis, so both programs compute the expression above with the same grouping of its two additions and the
  same order of factors: the comparison reads each program's layout operations at an index and uses no law of the
  extended reals, hence nothing of the inputs' finiteness.

    * Proof/Affine.lean     — the expression, as one function of the three arguments, index by index;
    * Proof/Reference.lean  — the reference's result is that function;
    * Proof/Body.lean       — what the kernel body stores at an index of its block, from its loads;
    * Proof/Staged.lean     — the three arrays the host operations prepare, read at an index of the arguments;
    * Proof/Blocks.lean     — point `t` writes rows `64 t … 64 t + 63` of that function; the 16 blocks cover the
                              result; the kernel's run ends with the result array at that function.

  The three frames are the generated frame runs; the idealization rewrote nothing, so `preserves` has nothing to state.
-/
import proofs.«145950_j5480378270212_2_alg».proof.Defs
import proofs.«145950_j5480378270212_2_alg».proof.Proof.Gen.Kernel
import proofs.«145950_j5480378270212_2_alg».proof.Proof.Gen.Kernel.Frame
import proofs.«145950_j5480378270212_2_alg».proof.Proof.Gen.KernelIdeal
import proofs.«145950_j5480378270212_2_alg».proof.Proof.Gen.KernelIdeal.Frame
import proofs.«145950_j5480378270212_2_alg».proof.Proof.Gen.KernelIdeal.Value
import proofs.«145950_j5480378270212_2_alg».proof.Proof.Gen.ReferenceIdeal
import proofs.«145950_j5480378270212_2_alg».proof.Proof.Gen.ReferenceIdeal.Run
import proofs.«145950_j5480378270212_2_alg».proof.Proof.Gen.ReferenceIdeal.Read
import proofs.«145950_j5480378270212_2_alg».proof.Proof.Gen.Pre_finite_inputs
import proofs.«145950_j5480378270212_2_alg».proof.Proof.Affine
import proofs.«145950_j5480378270212_2_alg».proof.Proof.Reference
import proofs.«145950_j5480378270212_2_alg».proof.Proof.Blocks

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on `x`, `W` and `b`, the idealized kernel and the idealized reference both end with the
    result array at the per-gene affine function of those arguments. -/
theorem algebraic : Cert.algebraic_KernelIdeal_ReferenceIdeal := by
  intro m ρ m' ρ' _ hagree
  refine ⟨fun c => Cert.PerGene.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.PerGene.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.PerGene.Reference.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
